-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x64 .f32) (main_arg3 : FVec F S64 .f32) (main_arg4 : FVec F S64x32 .f32) (main_arg5 : FVec F S32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x256 : Shape := ⟨2, ![2000, 256]⟩
abbrev S2000x64 : Shape := ⟨2, ![2000, 64]⟩
abbrev S850000x64 : Shape := ⟨2, ![850000, 64]⟩
abbrev S5000x64 : Shape := ⟨2, ![5000, 64]⟩
abbrev S5000x1 : Shape := ⟨2, ![5000, 1]⟩
abbrev S1x64 : Shape := ⟨2, ![1, 64]⟩
abbrev S50000x32 : Shape := ⟨2, ![50000, 32]⟩
abbrev S2000x32 : Shape := ⟨2, ![2000, 32]⟩
abbrev S850000x32 : Shape := ⟨2, ![850000, 32]⟩
abbrev S5000x32 : Shape := ⟨2, ![5000, 32]⟩
abbrev S1x32 : Shape := ⟨2, ![1, 32]⟩

abbrev nBuf : Space → Nat
  | .hbm => 74
  | .vmem => 23
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S850000x1, .f32⟩
  | .hbm, ⟨40, _⟩ => ⟨S50000x64, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000x64, .f32⟩
  | .hbm, ⟨50, _⟩ => ⟨S850000x64, .f32⟩
  | .hbm, ⟨51, _⟩ => ⟨S_, .f32⟩
  | .hbm, ⟨52, _⟩ => ⟨S50000x64, .f32⟩
  | .hbm, ⟨53, _⟩ => ⟨S850000x1, .i32⟩
  | .hbm, ⟨54, _⟩ => ⟨S50000x64, .f32⟩
  | .hbm, ⟨55, _⟩ => ⟨S1x64, .f32⟩
  | .hbm, ⟨56, _⟩ => ⟨S50000x32, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x32, .f32⟩
  | .hbm, ⟨66, _⟩ => ⟨S850000x32, .f32⟩
  | .hbm, ⟨67, _⟩ => ⟨S_, .f32⟩
  | .hbm, ⟨68, _⟩ => ⟨S50000x32, .f32⟩
  | .hbm, ⟨69, _⟩ => ⟨S850000x1, .i32⟩
  | .hbm, ⟨70, _⟩ => ⟨S50000x32, .f32⟩
  | .hbm, ⟨71, _⟩ => ⟨S1x32, .f32⟩
  | .hbm, ⟨72, _⟩ => ⟨S50000x32, .f32⟩
  | .hbm, ⟨73, _⟩ => ⟨S50000x32, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x64, .f32⟩
  | .local _ .vmem, ⟨10, _⟩ => ⟨S5000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S64x32, .f32⟩
  | .local _ .vmem, ⟨15, _⟩ => ⟨S2000x32, .f32⟩
  | .local _ .vmem, ⟨16, _⟩ => ⟨S2000x32, .f32⟩
  | .local _ .vmem, ⟨17, _⟩ => ⟨S5000x32, .f32⟩
  | .local _ .vmem, ⟨18, _⟩ => ⟨S5000x32, .f32⟩
  | .local _ .vmem, ⟨19, _⟩ => ⟨S5000x1, .f32⟩
  | .local _ .vmem, ⟨20, _⟩ => ⟨S5000x1, .f32⟩
  | .local _ .vmem, ⟨21, _⟩ => ⟨S5000x32, .f32⟩
  | .local _ .vmem, ⟨22, _⟩ => ⟨S5000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![170], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S850000_S850000x1 : S850000.ShapeCasts S850000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S5000x1_S5000x32 : S5000x1.Broadcasts S5000x32
  bcast_S_S50000x32 : S_.BroadcastsInDim S50000x32 (![] : Fin 0 → Fin S50000x32.rank)
  shapeCasts_S32_S1x32 : S32.ShapeCasts S1x32
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x32_S2000x32_1_0_0_1_n_n_wf : DotDims.WF S2000x64 S64x32 S2000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S850000x64.size a
  hwx1_0 : ∀ i : grid1.Coords, EltTy.bits .f32 = 32 ∨ (Rect.block (s := S850000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S850000x1.size a
  hwx1_1 : ∀ i : grid1.Coords, EltTy.bits .f32 = 32 ∨ (Rect.block (s := S850000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S850000x64.size a
  hwx1_2 : ∀ i : grid1.Coords, EltTy.bits .f32 = 32 ∨ (Rect.block (s := S850000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S50000x32.size a
  hwx2_3 : ∀ i : grid2.Coords, EltTy.bits .f32 = 32 ∨ (Rect.block (s := S50000x32) S2000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S850000x32.size a
  hwx3_0 : ∀ i : grid3.Coords, EltTy.bits .f32 = 32 ∨ (Rect.block (s := S850000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S850000x1.size a
  hwx3_1 : ∀ i : grid3.Coords, EltTy.bits .f32 = 32 ∨ (Rect.block (s := S850000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S850000x32.size a
  hwx3_2 : ∀ i : grid3.Coords, EltTy.bits .f32 = 32 ∨ (Rect.block (s := S850000x32) S5000x32.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v48) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 108
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x64, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S850000, .i32⟩
  | .hbm, ⟨23, _⟩ => ⟨S850000, .i1⟩
  | .hbm, ⟨24, _⟩ => ⟨S_, .i32⟩
  | .hbm, ⟨25, _⟩ => ⟨S850000, .i32⟩
  | .hbm, ⟨26, _⟩ => ⟨S850000, .i32⟩
  | .hbm, ⟨27, _⟩ => ⟨S850000, .i32⟩
  | .hbm, ⟨28, _⟩ => ⟨S850000x1, .i32⟩
  | .hbm, ⟨29, _⟩ => ⟨S850000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x32, .f32⟩
  | .hbm, ⟨63, _⟩ => ⟨S_, .f32⟩
  | .hbm, ⟨64, _⟩ => ⟨S850000, .f32⟩
  | .hbm, ⟨65, _⟩ => ⟨S_, .f32⟩
  | .hbm, ⟨66, _⟩ => ⟨S50000, .f32⟩
  | .hbm, ⟨67, _⟩ => ⟨S850000x1, .i32⟩
  | .hbm, ⟨68, _⟩ => ⟨S50000, .f32⟩
  | .hbm, ⟨69, _⟩ => ⟨S50000, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x32, .f32⟩
  | .hbm, ⟨98, _⟩ => ⟨S850000x1, .f32⟩
  | .hbm, ⟨99, _⟩ => ⟨S850000x32, .f32⟩
  | .hbm, ⟨100, _⟩ => ⟨S850000x32, .f32⟩
  | .hbm, ⟨101, _⟩ => ⟨S_, .f32⟩
  | .hbm, ⟨102, _⟩ => ⟨S50000x32, .f32⟩
  | .hbm, ⟨103, _⟩ => ⟨S850000x1, .i32⟩
  | .hbm, ⟨104, _⟩ => ⟨S50000x32, .f32⟩
  | .hbm, ⟨105, _⟩ => ⟨S1x32, .f32⟩
  | .hbm, ⟨106, _⟩ => ⟨S50000x32, .f32⟩
  | .hbm, ⟨107, _⟩ => ⟨S50000x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x256_S256x64_S50000x64_1_0_0_1_n_n_wf : DotDims.WF S50000x256 S256x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.KernelRun.lean ====
/-
  The whole program's run, with its result named. The program is nine segments: five stretches of host operations
  and, between them, the four pipelined regions. Every weakly fair execution terminates without a fault; at the end
  every unscoped buffer holds what the fold through the nine segments leaves in it, so the result buffer holds the
  fold's value there and each argument holds what it held at launch.
-/
import proofs.«148951_j28656021799465_2_alg».proof.Proof.Gen.KernelIdeal.Frame

set_option maxRecDepth 16384

noncomputable section

namespace Cert.KernelIdeal.WholeRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the fold's value and the
    arguments as launched. -/
theorem run_result : θ_run defs (onTc (τ := τ) (main (F := F))) ⟨m, fun _ => 0, ρ⟩ (fun r => ∀ c : Dev nD,
      r.2.mem ((c.tc : Thread nD τ).loc main_v55) = W9 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v55 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.WholeRun

end
-- ==== Proof.LibRowScale.lean ====
/-
  A matrix scaled row by row: entry (p, q) of `rowScale x s` is x (p, q) · s (p, 0), where s is a one-column matrix.
  Two spellings of it: a vector unit's product of x with the column repeated along the rows, and a host product of x
  with the column broadcast along the rows. A band of consecutive rows of a row-scaled matrix is the band of x scaled
  by the band of s. Also: a vector viewed as one column by a reshape is the vector broadcast into one column, and a
  vector viewed as one row by a reshape is the vector broadcast into one row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowScale

open Idealize.ShloMosaic Idealize.ShloMosaic.ValueIdx

/-- Entry (p, q) of x scaled row by row by the one-column s: x (p, q) · s (p, 0). -/
def rowScale {M N : ℕ} (x : FVec Ideal ⟨2, ![M, N]⟩ .f32) (s : FVec Ideal ⟨2, ![M, 1]⟩ .f32) : FVec Ideal ⟨2, ![M, N]⟩ .f32 :=
  fun i => x i * s (ix2 (n0 := M) (n1 := 1) (i 0) (0 : Fin 1))

theorem rowScale_apply {M N : ℕ} (x : FVec Ideal ⟨2, ![M, N]⟩ .f32) (s : FVec Ideal ⟨2, ![M, 1]⟩ .f32) (p : Fin M) (q : Fin N) :
    rowScale x s (ix2 p q) = x (ix2 p q) * s (ix2 p (0 : Fin 1)) := rfl

/-- A one-column matrix repeated along the rows reads, at (p, c), its entry (p, 0). -/
theorem broadcastTo_col_apply {M N : ℕ} (v : FVec Ideal ⟨2, ![M, 1]⟩ .f32) (h : (⟨2, ![M, 1]⟩ : Shape).Broadcasts ⟨2, ![M, N]⟩)
    (p : Fin M) (c : Fin N) : broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- A one-column matrix broadcast along the rows by the host reads, at (p, c), its entry (p, 0). -/
theorem broadcastInDim_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The vector unit's spelling: x and s each through an identity re-lay, s repeated along the rows, the product. -/
theorem mul_broadcastTo_eq {M N : ℕ} (x : FVec Ideal ⟨2, ![M, N]⟩ .f32) (s : FVec Ideal ⟨2, ![M, 1]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩) :
    mulf (shapeCast ⟨2, ![M, N]⟩ x h1) (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, shapeCast_self, mulf_apply, broadcastTo_col_apply, rowScale_apply]

/-- The host's spelling: the product of x with s broadcast along the rows. -/
theorem mul_broadcastInDim_eq {M N : ℕ} (x : FVec Ideal ⟨2, ![M, N]⟩ .f32) (s : FVec Ideal ⟨2, ![M, 1]⟩ .f32)
    (hb : (⟨2, ![M, 1]⟩ : Shape).BroadcastsInDim ⟨2, ![M, N]⟩ ![0, 1]) :
    mulf x (broadcastInDim ⟨2, ![M, N]⟩ ![0, 1] hb s) = rowScale x s := by
  funext j
  obtain ⟨p, q, rfl⟩ : ∃ (p : Fin M) (q : Fin N), j = ix2 p q := ⟨j 0, j 1, eq_ix2 j⟩
  rw [mulf_apply, broadcastInDim_col_apply, rowScale_apply]

/-- Rows r, …, r + T − 1 of a row-scaled matrix: when x holds those rows of X and s those rows of S, the entry of
    `rowScale x s` at y is the entry of `rowScale X S` at the index whose row is r plus y's row and whose column is y's. -/
theorem rowScale_rows {M N T : ℕ} (X : FVec Ideal ⟨2, ![M, N]⟩ .f32) (S : FVec Ideal ⟨2, ![M, 1]⟩ .f32)
    (x : FVec Ideal ⟨2, ![T, N]⟩ .f32) (s : FVec Ideal ⟨2, ![T, 1]⟩ .f32) (r : ℕ)
    (hx : ∀ (p : Fin T) (q : Fin N) (hp : r + p.val < M), x (ix2 p q) = X (ix2 ⟨r + p.val, hp⟩ q))
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    rowScale x s y = rowScale X S i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [rowScale_apply, rowScale_apply, hx p q' (h0 ▸ p'.isLt), hs p (h0 ▸ p'.isLt), ← hp']

/-- A vector re-laid as one column is the vector broadcast into one column. -/
theorem col_cast_eq_bcast {a : ℕ} {α : Type} (v : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨i, u, rfl⟩ : ∃ (i : Fin a) (u : Fin 1), j = ix2 i u := ⟨j 0, j 1, eq_ix2 j⟩
  have e1 : shapeCast ⟨2, ![a, 1]⟩ v hc (ix2 i u) = v (ix1 i) :=
    shapeCast_apply v hc _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hb v (ix2 i u) = v (ix1 i) :=
    broadcastInDim_apply _ hb v _ (ix1 i) (fun ax => match ax with
      | ⟨0, _⟩ => by
        show i.val = if a = 1 then 0 else i.val
        split
        · have := i.isLt; omega
        · rfl)
  rw [e1, e2]

/-- A vector re-laid as one row is the vector broadcast into one row. -/
theorem row_cast_eq_bcast {a : ℕ} {α : Type} (v : (⟨1, ![a]⟩ : Shape).Idx → α) (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  have e1 : shapeCast ⟨2, ![1, a]⟩ v hc (ix2 u i) = v (ix1 i) :=
    shapeCast_apply v hc _ _ (by
      have hu : u.val = 0 := by omega
      rw [Shape.rowMajor_val_two, Shape.rowMajor_val_one]
      show i.val = u.val * a + i.val
      rw [hu, Nat.zero_mul, Nat.zero_add])
  have e2 : broadcastInDim ⟨2, ![1, a]⟩ ![1] hb v (ix2 u i) = v (ix1 i) :=
    broadcastInDim_apply _ hb v _ (ix1 i) (fun ax => match ax with
      | ⟨0, _⟩ => by
        show i.val = if a = 1 then 0 else i.val
        split
        · have := i.isLt; omega
        · rfl)
  rw [e1, e2]

end Cert.LibRowScale

end
-- ==== Proof.Stage1.lean ====
/-
  The buffers the program holds when its first region is entered, as functions of the launch contents. The opening
  stretch of host operations builds the source and destination index lists (each edge list followed by one self loop
  per node), counts each node's incoming edges, takes the reciprocal square root of the counts, and multiplies the
  two endpoint values per edge; the product, re-laid as one column, is the per-edge factor. Each of these is the
  same composition of operations the reference applies, so it is stated as the reference's stage of the same name.
  A vector re-laid as one column by a reshape is the vector broadcast into one column.
-/
import proofs.«148951_j28656021799465_2_alg».proof.Proof.Gen.KernelIdeal.Frame
import proofs.«148951_j28656021799465_2_alg».proof.Proof.Gen.ReferenceIdeal.Read
import proofs.«148951_j28656021799465_2_alg».proof.Proof.LibRowScale

noncomputable section

open Idealize.ShloMosaic Idealize.ShloMosaic.TcCoe Idealize.SL.Sem Idealize.ShloMosaic.ValueIdx Idealize.ShloMosaic.StableHlo

namespace Cert.KernelIdeal.Stages

open Cert.KernelIdeal Cert.KernelIdeal.Gen

variable (m : (ℓ : Loc nD τ sig) → Buf (Elt Ideal) ℓ) (ρ : Dev nD → PrngReg)

/-- The six argument arrays at launch, on core c. -/
abbrev X0 (c : Dev nD) : S50000x256.Idx → Elt Ideal .f32 := m ((c.tc : Thread nD τ).loc main_arg0)
abbrev X1 (c : Dev nD) : S2x800000.Idx → Elt Ideal .i32 := m ((c.tc : Thread nD τ).loc main_arg1)
abbrev X2 (c : Dev nD) : S256x64.Idx → Elt Ideal .f32 := m ((c.tc : Thread nD τ).loc main_arg2)
abbrev X3 (c : Dev nD) : S64.Idx → Elt Ideal .f32 := m ((c.tc : Thread nD τ).loc main_arg3)
abbrev X4 (c : Dev nD) : S64x32.Idx → Elt Ideal .f32 := m ((c.tc : Thread nD τ).loc main_arg4)
abbrev X5 (c : Dev nD) : S32.Idx → Elt Ideal .f32 := m ((c.tc : Thread nD τ).loc main_arg5)

/-- The source index list. -/
theorem entry1_src (c : Dev nD) :
    W1 m ρ c (Proc.devRef .tc main_v3) = Cert.ReferenceIdeal.Read.val_main_v3 (F := Ideal) (X1 m c) := by
  show StableHlo.after hostOps0 (W0 m ρ c) (Proc.devRef .tc main_v3) = _
  after_results
  rfl

/-- The destination index list. -/
theorem entry1_dst (c : Dev nD) :
    W1 m ρ c (Proc.devRef .tc main_v6) = Cert.ReferenceIdeal.Read.val_main_v6 (F := Ideal) (X1 m c) := by
  show StableHlo.after hostOps0 (W0 m ρ c) (Proc.devRef .tc main_v6) = _
  after_results
  rfl

set_option maxHeartbeats 4000000 in
/-- The per-edge factor, re-laid as one column: the product of the two endpoints' reciprocal square roots of the
    incoming-edge counts, the same operations the reference applies to the same index lists. -/
theorem entry1_factor_cast (c : Dev nD) :
    W1 m ρ c (Proc.devRef .tc main_v27)
      = shapeCast S850000x1 (Cert.ReferenceIdeal.Read.val_main_v27 (F := Ideal) (X1 m c)) shapeCasts_S850000_S850000x1 := by
  show StableHlo.after hostOps0 (W0 m ρ c) (Proc.devRef .tc main_v27) = _
  after_results
  rfl

/-- The per-edge factor as one column. -/
theorem entry1_factor (c : Dev nD) :
    W1 m ρ c (Proc.devRef .tc main_v27) = Cert.ReferenceIdeal.Read.val_main_v35 (F := Ideal) (X1 m c) :=
  (entry1_factor_cast m ρ c).trans (Cert.LibRowScale.col_cast_eq_bcast _ _ _)

/-- The arguments are untouched. -/
theorem entry1_arg0 (c : Dev nD) : W1 m ρ c (Proc.devRef .tc main_arg0) = X0 m c := by
  show StableHlo.after hostOps0 (W0 m ρ c) (Proc.devRef .tc main_arg0) = _
  after_results
theorem entry1_arg2 (c : Dev nD) : W1 m ρ c (Proc.devRef .tc main_arg2) = X2 m c := by
  show StableHlo.after hostOps0 (W0 m ρ c) (Proc.devRef .tc main_arg2) = _
  after_results
theorem entry1_arg3 (c : Dev nD) : W1 m ρ c (Proc.devRef .tc main_arg3) = X3 m c := by
  show StableHlo.after hostOps0 (W0 m ρ c) (Proc.devRef .tc main_arg3) = _
  after_results
theorem entry1_arg4 (c : Dev nD) : W1 m ρ c (Proc.devRef .tc main_arg4) = X4 m c := by
  show StableHlo.after hostOps0 (W0 m ρ c) (Proc.devRef .tc main_arg4) = _
  after_results
theorem entry1_arg5 (c : Dev nD) : W1 m ρ c (Proc.devRef .tc main_arg5) = X5 m c := by
  show StableHlo.after hostOps0 (W0 m ρ c) (Proc.devRef .tc main_arg5) = _
  after_results

end Cert.KernelIdeal.Stages

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«148951_j28656021799465_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.Region0.lean ====
/-
  The first dense layer. The grid has 25 points; point t holds rows 2000·t … 2000·t + 1999 of the node features
  (all 256 columns) and the whole 256 × 64 weight matrix, and writes rows 2000·t … 2000·t + 1999 of the result.
  What it writes is the matrix product of its block of rows with the weights (narrowing to bf16 is the identity
  on exact values, the accumulator starts at zero), which is that band of rows of the product of the whole
  feature matrix with the weights. The 25 bands tile the 50000 rows, so the array ends holding the whole product.
-/
import proofs.«148951_j28656021799465_2_alg».proof.Proof.Gen.KernelIdeal.Frame
import proofs.«148951_j28656021799465_2_alg».proof.Proof.LibMatProd
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.DenseOne

open Cert.KernelIdeal Cert.KernelIdeal.Gen Cert.LibMatProd

variable (V : (c : Dev nD) → (b : Ref sig .tc) → Buf (Elt Ideal) ((c : Thread nD τ).loc b))

theorem zero_offsets : (![0, 0] : Fin 2 → Nat) = fun _ => 0 := funext fun a => by fin_cases a <;> rfl

/-- The product of the whole feature matrix with the weights, as the region finds them. -/
abbrev whole (c : Dev nD) : S50000x64.Idx → Elt Ideal .f32 :=
  matProd (M := 50000) (K := 256) (N := 64) (V c main_arg0) (V c main_arg2)

/-- The body's stored value is the matrix product of its two loaded blocks. -/
theorem payload_eq (x0 : Vec Ideal S2000x256 .f32) (x1 : Vec Ideal S256x64 .f32) :
    k0_pay1 x0 x1 = matProd (M := 2000) (K := 256) (N := 64) x0 x1 :=
  matmul_eq dot_S2000x256_S256x64_S2000x64_1_0_0_1_n_n rfl rfl rfl rfl rfl rfl x0 x1 bitsLt_bf16_f32

/-- Block indices over the grid: the feature rows and the result rows move with the point, the weights stay. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 2000·t … of the feature matrix. -/
theorem rows_block (c : Dev nD) (t : Fin cfg0.N) (p : Fin 2000) (k : Fin 256) (hp : 2000 * t.val + p.val < 50000) :
    (iblk0 V c 0 t : Vec Ideal S2000x256 .f32) (ix2 p k) = (V c main_arg0 : S50000x256.Idx → Elt Ideal .f32) (ix2 ⟨2000 * t.val + p.val, hp⟩ k) := by
  obtain ⟨e0, e1, -, -, -, -⟩ := block_index t
  unfold iblk0
  rw [View.read_apply]
  show V c main_arg0 _ = V c main_arg0 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 256 + 1 * k.val = k.val; rw [e1]; omega

/-- The weight block at every point is the whole weight matrix. -/
theorem weights_block (c : Dev nD) (t : Fin cfg0.N) (z : S256x64.Idx) :
    (iblk0 V c 1 t : Vec Ideal S256x64 .f32) z = (V c main_arg2 : S256x64.Idx → Elt Ideal .f32) z := by
  obtain ⟨-, -, e2, e3, -, -⟩ := block_index t
  unfold iblk0
  rw [View.read_apply]
  show V c main_arg2 _ = V c main_arg2 _
  congr 1
  funext a
  apply Fin.ext
  match a with
  | ⟨0, _⟩ => show win0_1.index t (0 : Fin 2) * 256 + 1 * (z 0).val = (z 0).val; rw [e2]; omega
  | ⟨1, _⟩ => show win0_1.index t (1 : Fin 2) * 64 + 1 * (z 1).val = (z 1).val; rw [e3]; omega

/-- What point t writes back is its band of rows of the whole product. -/
theorem flushed (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x64) zero_offsets]
  rw [payload_eq]
  obtain ⟨-, -, -, -, e4, e5⟩ := block_index t
  funext j
  show matProd (M := 2000) (K := 256) (N := 64) (iblk0 V c 0 t) (iblk0 V c 1 t) j = whole V c (((cfg0.win 2).blk t).view.emb j)
  refine matProd_rows (V c main_arg0) (V c main_arg2) (iblk0 V c 0 t) (iblk0 V c 1 t) (2000 * t.val)
    (fun p k hp => rows_block V c t p k hp) (fun z => weights_block V c t z) j _ ?_ ?_
  · show win0_2.index t (0 : Fin 2) * 2000 + 1 * (j 0).val = 2000 * t.val + (j 0).val; rw [e4]; omega
  · show win0_2.index t (1 : Fin 2) * 64 + 1 * (j 1).val = (j 1).val; rw [e5]; omega

/-- An index of the result lies in point t's block exactly when its row is in the band. -/
theorem mem_block (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v28).slice (win0_2.rect t)).set ↔ _
  rw [View.set_slice_whole, Rect.mem_set_unit]
  exact Iff.rfl

/-- The result array after the region: the whole product. -/
theorem array (c : Dev nD) : (dat0 V c).arrAt 2 cfg0.N = whole V c :=
  (dat0 V c).arrAt_eq_of_cover 2 (whole V c) (fun t _ => flushed V c t) fun i => by
    have hi0 : (i 0).val < 50000 := (i 0).isLt
    have hi1 : (i 1).val < 64 := (i 1).isLt
    have hN : cfg0.N = 25 := N_0
    refine ⟨⟨(i 0).val / 2000, by rw [hN]; omega⟩, flush0_2 _, ?_⟩
    rw [mem_block]
    obtain ⟨-, -, -, -, e4, e5⟩ := block_index ⟨(i 0).val / 2000, by rw [hN]; omega⟩
    intro a
    match a with
    | ⟨0, _⟩ =>
      show win0_2.index _ (0 : Fin 2) * 2000 ≤ (i 0).val ∧ (i 0).val < win0_2.index _ (0 : Fin 2) * 2000 + 2000
      rw [e4]; show (i 0).val / 2000 * 2000 ≤ (i 0).val ∧ (i 0).val < (i 0).val / 2000 * 2000 + 2000; omega
    | ⟨1, _⟩ =>
      show win0_2.index _ (1 : Fin 2) * 64 ≤ (i 1).val ∧ (i 1).val < win0_2.index _ (1 : Fin 2) * 64 + 64
      rw [e5]; omega

end Cert.KernelIdeal.DenseOne

end
-- ==== Proof.Region1.lean ====
/-
  The first message scaling. The grid has 170 points; point t holds rows 5000·t … 5000·t + 4999 of the gathered
  features (850000 edges by 64 columns) and the same rows of the per-edge factor (one column), and writes those rows
  of the result: each gathered row times its edge's factor. The 170 bands tile the 850000 rows, so the array ends
  holding every gathered row scaled by its factor.
-/
import proofs.«148951_j28656021799465_2_alg».proof.Proof.Gen.KernelIdeal.Frame
import proofs.«148951_j28656021799465_2_alg».proof.Proof.LibRowScale
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.ScaleOne

open Cert.KernelIdeal Cert.KernelIdeal.Gen Cert.LibRowScale

variable (V : (c : Dev nD) → (b : Ref sig .tc) → Buf (Elt Ideal) ((c : Thread nD τ).loc b))

theorem zero_offsets : (![0, 0] : Fin 2 → Nat) = fun _ => 0 := funext fun a => by fin_cases a <;> rfl

/-- The gathered rows scaled by the per-edge factor, as the region finds them. -/
abbrev whole (c : Dev nD) : S850000x64.Idx → Elt Ideal .f32 :=
  rowScale (M := 850000) (N := 64) (V c main_v35) (V c main_v27)

/-- The body's stored value is its block of rows scaled by its block of the factor column. -/
theorem payload_eq (x0 : Vec Ideal S5000x64 .f32) (x1 : Vec Ideal S5000x1 .f32) :
    k1_pay1 x0 x1 = rowScale (M := 5000) (N := 64) x0 x1 :=
  mul_broadcastTo_eq x0 x1 shapeCasts_S5000x64_S5000x64 shapeCasts_S5000x1_S5000x1 broadcasts_S5000x1_S5000x64

/-- Block indices over the grid: all three windows move down the rows with the point. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The block of gathered rows at point t is rows 5000·t … of the gathered array. -/
theorem rows_block (c : Dev nD) (t : Fin cfg1.N) (p : Fin 5000) (q : Fin 64) (hp : 5000 * t.val + p.val < 850000) :
    (iblk1 V c 0 t : Vec Ideal S5000x64 .f32) (ix2 p q) = (V c main_v35 : S850000x64.Idx → Elt Ideal .f32) (ix2 ⟨5000 * t.val + p.val, hp⟩ q) := by
  obtain ⟨e0, e1, -, -, -, -⟩ := block_index t
  unfold iblk1
  rw [View.read_apply]
  show V c main_v35 _ = V c main_v35 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega

/-- The block of the factor column at point t is rows 5000·t … of the factor column. -/
theorem factor_block (c : Dev nD) (t : Fin cfg1.N) (p : Fin 5000) (hp : 5000 * t.val + p.val < 850000) :
    (iblk1 V c 1 t : Vec Ideal S5000x1 .f32) (ix2 p (0 : Fin 1)) = (V c main_v27 : S850000x1.Idx → Elt Ideal .f32) (ix2 ⟨5000 * t.val + p.val, hp⟩ (0 : Fin 1)) := by
  obtain ⟨-, -, e2, e3, -, -⟩ := block_index t
  unfold iblk1
  rw [View.read_apply]
  show V c main_v27 _ = V c main_v27 _
  congr 1
  funext a
  apply Fin.ext
  match a with
  | ⟨0, _⟩ => show win1_1.index t (0 : Fin 2) * 5000 + 1 * p.val = 5000 * t.val + p.val; rw [e2]; omega
  | ⟨1, _⟩ => show win1_1.index t (1 : Fin 2) * 1 + 1 * 0 = 0; rw [e3]

/-- What point t writes back is its band of rows of the whole scaled array. -/
theorem flushed (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S5000x1) zero_offsets]
  rw [payload_eq]
  obtain ⟨-, -, -, -, e4, e5⟩ := block_index t
  funext j
  show rowScale (M := 5000) (N := 64) (iblk1 V c 0 t) (iblk1 V c 1 t) j = whole V c (((cfg1.win 2).blk t).view.emb j)
  refine rowScale_rows (V c main_v35) (V c main_v27) (iblk1 V c 0 t) (iblk1 V c 1 t) (5000 * t.val)
    (fun p q hp => rows_block V c t p q hp) (fun p hp => factor_block V c t p hp) j _ ?_ ?_
  · show win1_2.index t (0 : Fin 2) * 5000 + 1 * (j 0).val = 5000 * t.val + (j 0).val; rw [e4]; omega
  · show win1_2.index t (1 : Fin 2) * 64 + 1 * (j 1).val = (j 1).val; rw [e5]; omega

/-- An index of the result lies in point t's block exactly when its row is in the band. -/
theorem mem_block (t : Fin cfg1.N) (i : S850000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v36).slice (win1_2.rect t)).set ↔ _
  rw [View.set_slice_whole, Rect.mem_set_unit]
  exact Iff.rfl

/-- The result array after the region: the whole scaled array. -/
theorem array (c : Dev nD) : (dat1 V c).arrAt 2 cfg1.N = whole V c :=
  (dat1 V c).arrAt_eq_of_cover 2 (whole V c) (fun t _ => flushed V c t) fun i => by
    have hi0 : (i 0).val < 850000 := (i 0).isLt
    have hi1 : (i 1).val < 64 := (i 1).isLt
    have hN : cfg1.N = 170 := N_1
    refine ⟨⟨(i 0).val / 5000, by rw [hN]; omega⟩, flush1_2 _, ?_⟩
    rw [mem_block]
    obtain ⟨-, -, -, -, e4, e5⟩ := block_index ⟨(i 0).val / 5000, by rw [hN]; omega⟩
    intro a
    match a with
    | ⟨0, _⟩ =>
      show win1_2.index _ (0 : Fin 2) * 5000 ≤ (i 0).val ∧ (i 0).val < win1_2.index _ (0 : Fin 2) * 5000 + 5000
      rw [e4]; show (i 0).val / 5000 * 5000 ≤ (i 0).val ∧ (i 0).val < (i 0).val / 5000 * 5000 + 5000; omega
    | ⟨1, _⟩ =>
      show win1_2.index _ (1 : Fin 2) * 64 ≤ (i 1).val ∧ (i 1).val < win1_2.index _ (1 : Fin 2) * 64 + 64
      rw [e5]; omega

end Cert.KernelIdeal.ScaleOne

end
-- ==== Proof.Stage2.lean ====
/-
  From the first region to the second one's exit. The first region leaves the product of the features with the
  first weight matrix, which is the host's contraction of the same two arrays. The host then gathers one row of that
  product per edge (by the source list, negative indices wrapped) — the same operations on the same values as the
  reference's. The second region scales each gathered row by its edge's factor, which is the host's product with the
  factor column broadcast along the rows. Buffers no region or operation writes keep their contents.
-/
import proofs.«148951_j28656021799465_2_alg».proof.Proof.Stage1
import proofs.«148951_j28656021799465_2_alg».proof.Proof.Region0
import proofs.«148951_j28656021799465_2_alg».proof.Proof.Region1
import proofs.«148951_j28656021799465_2_alg».proof.Proof.LibMatProd
import proofs.«148951_j28656021799465_2_alg».proof.Proof.LibRowScale

noncomputable section

open Idealize.ShloMosaic Idealize.ShloMosaic.TcCoe Idealize.SL.Sem Idealize.ShloMosaic.ValueIdx Idealize.ShloMosaic.StableHlo

namespace Cert.KernelIdeal.Stages

open Cert.KernelIdeal Cert.KernelIdeal.Gen Cert.LibMatProd Cert.LibRowScale
open Cert.ReferenceIdeal.Read (val_main_v3 val_main_v6 val_main_v7 val_main_v27 val_main_v34 val_main_v35 val_main_v37 val_main_v40 val_main_v41 val_main_v44 val_main_v45 val_main_v72 val_main_v73 val_main_v75 val_main_v81)

variable (m : (ℓ : Loc nD τ sig) → Buf (Elt Ideal) ℓ) (ρ : Dev nD → PrngReg)

/-! ## After the first region -/

/-- The first layer's product. -/
theorem exit0_product (c : Dev nD) :
    W2 m ρ c (Proc.devRef .tc main_v28) = val_main_v7 (F := Ideal) (X0 m c) (X2 m c) := by
  refine (W2_arr m ρ c 2).trans ((DenseOne.array (V1 m ρ) c).trans ?_)
  show matProd (M := 50000) (K := 256) (N := 64) (W1 m ρ c (Proc.devRef .tc main_arg0)) (W1 m ρ c (Proc.devRef .tc main_arg2)) = _
  rw [entry1_arg0, entry1_arg2]
  exact (host_dot_eq Cert.ReferenceIdeal.dot_S50000x256_S256x64_S50000x64_1_0_0_1_n_n rfl rfl rfl rfl rfl rfl _ _).symm

theorem exit0_src (c : Dev nD) : W2 m ρ c (Proc.devRef .tc main_v3) = val_main_v3 (F := Ideal) (X1 m c) :=
  (W2_of_ne m ρ c main_v3 (by decide)).trans (entry1_src m ρ c)

theorem exit0_dst (c : Dev nD) : W2 m ρ c (Proc.devRef .tc main_v6) = val_main_v6 (F := Ideal) (X1 m c) :=
  (W2_of_ne m ρ c main_v6 (by decide)).trans (entry1_dst m ρ c)

theorem exit0_factor (c : Dev nD) : W2 m ρ c (Proc.devRef .tc main_v27) = val_main_v35 (F := Ideal) (X1 m c) :=
  (W2_of_ne m ρ c main_v27 (by decide)).trans (entry1_factor m ρ c)

theorem exit0_arg3 (c : Dev nD) : W2 m ρ c (Proc.devRef .tc main_arg3) = X3 m c :=
  (W2_of_ne m ρ c main_arg3 (by decide)).trans (entry1_arg3 m ρ c)

theorem exit0_arg4 (c : Dev nD) : W2 m ρ c (Proc.devRef .tc main_arg4) = X4 m c :=
  (W2_of_ne m ρ c main_arg4 (by decide)).trans (entry1_arg4 m ρ c)

theorem exit0_arg5 (c : Dev nD) : W2 m ρ c (Proc.devRef .tc main_arg5) = X5 m c :=
  (W2_of_ne m ρ c main_arg5 (by decide)).trans (entry1_arg5 m ρ c)

/-! ## Entering the second region -/

/-- One row of the product per edge. -/
theorem entry2_rows (c : Dev nD) :
    W3 m ρ c (Proc.devRef .tc main_v35) = val_main_v34 (F := Ideal) (X0 m c) (X1 m c) (X2 m c) := by
  show StableHlo.after hostOps1 (W2 m ρ c) (Proc.devRef .tc main_v35) = _
  after_results
  rw [exit0_product, exit0_src]
  rfl

theorem entry2_src (c : Dev nD) : W3 m ρ c (Proc.devRef .tc main_v3) = val_main_v3 (F := Ideal) (X1 m c) := by
  show StableHlo.after hostOps1 (W2 m ρ c) (Proc.devRef .tc main_v3) = _
  after_results
  exact exit0_src m ρ c

theorem entry2_dst (c : Dev nD) : W3 m ρ c (Proc.devRef .tc main_v6) = val_main_v6 (F := Ideal) (X1 m c) := by
  show StableHlo.after hostOps1 (W2 m ρ c) (Proc.devRef .tc main_v6) = _
  after_results
  exact exit0_dst m ρ c

theorem entry2_factor (c : Dev nD) : W3 m ρ c (Proc.devRef .tc main_v27) = val_main_v35 (F := Ideal) (X1 m c) := by
  show StableHlo.after hostOps1 (W2 m ρ c) (Proc.devRef .tc main_v27) = _
  after_results
  exact exit0_factor m ρ c

theorem entry2_arg3 (c : Dev nD) : W3 m ρ c (Proc.devRef .tc main_arg3) = X3 m c := by
  show StableHlo.after hostOps1 (W2 m ρ c) (Proc.devRef .tc main_arg3) = _
  after_results
  exact exit0_arg3 m ρ c

theorem entry2_arg4 (c : Dev nD) : W3 m ρ c (Proc.devRef .tc main_arg4) = X4 m c := by
  show StableHlo.after hostOps1 (W2 m ρ c) (Proc.devRef .tc main_arg4) = _
  after_results
  exact exit0_arg4 m ρ c

theorem entry2_arg5 (c : Dev nD) : W3 m ρ c (Proc.devRef .tc main_arg5) = X5 m c := by
  show StableHlo.after hostOps1 (W2 m ρ c) (Proc.devRef .tc main_arg5) = _
  after_results
  exact exit0_arg5 m ρ c

/-! ## After the second region -/

/-- The first layer's messages: each gathered row times its edge's factor. -/
theorem exit1_messages (c : Dev nD) :
    W4 m ρ c (Proc.devRef .tc main_v36) = val_main_v37 (F := Ideal) (X0 m c) (X1 m c) (X2 m c) := by
  refine (W4_arr m ρ c 2).trans ((ScaleOne.array (V3 m ρ) c).trans ?_)
  show rowScale (M := 850000) (N := 64) (W3 m ρ c (Proc.devRef .tc main_v35)) (W3 m ρ c (Proc.devRef .tc main_v27)) = _
  rw [entry2_rows, entry2_factor]
  exact (mul_broadcastInDim_eq _ _ Cert.ReferenceIdeal.Gen.bcast_S850000x1_S850000x64_0_1).symm

theorem exit1_src (c : Dev nD) : W4 m ρ c (Proc.devRef .tc main_v3) = val_main_v3 (F := Ideal) (X1 m c) :=
  (W4_of_ne m ρ c main_v3 (by decide)).trans (entry2_src m ρ c)

theorem exit1_dst (c : Dev nD) : W4 m ρ c (Proc.devRef .tc main_v6) = val_main_v6 (F := Ideal) (X1 m c) :=
  (W4_of_ne m ρ c main_v6 (by decide)).trans (entry2_dst m ρ c)

/-- The factor column is an input of the region: it leaves as it entered. -/
theorem exit1_factor (c : Dev nD) : W4 m ρ c (Proc.devRef .tc main_v27) = val_main_v35 (F := Ideal) (X1 m c) :=
  ((W4_arr m ρ c 1).trans (((dat1 (V3 m ρ) c).arrAt_in 1 rfl _).trans (A_eq1 (V3 m ρ) c 1))).trans (entry2_factor m ρ c)

theorem exit1_arg3 (c : Dev nD) : W4 m ρ c (Proc.devRef .tc main_arg3) = X3 m c :=
  (W4_of_ne m ρ c main_arg3 (by decide)).trans (entry2_arg3 m ρ c)

theorem exit1_arg4 (c : Dev nD) : W4 m ρ c (Proc.devRef .tc main_arg4) = X4 m c :=
  (W4_of_ne m ρ c main_arg4 (by decide)).trans (entry2_arg4 m ρ c)

theorem exit1_arg5 (c : Dev nD) : W4 m ρ c (Proc.devRef .tc main_arg5) = X5 m c :=
  (W4_of_ne m ρ c main_arg5 (by decide)).trans (entry2_arg5 m ρ c)

end Cert.KernelIdeal.Stages

end
-- ==== Proof.LibBiasRelu.lean ====
/-
  A matrix plus a row vector, clamped below at zero: entry (p, q) of `biasRelu a b` is max (a (p, q) + b (0, q)) 0,
  where b is a one-row matrix and 0 is the value of the all-zero float word. Two spellings of it: a vector unit's
  (identity re-lays, the row repeated down the rows, a maximum against the splat zero) and a host's (the row broadcast
  down the rows, a maximum against a broadcast scalar zero). A band of consecutive rows of it is the same function of
  the band of a.
-/
import proofs.«148951_j28656021799465_2_alg».proof.Proof.LibPlainDot

noncomputable section

namespace Cert.LibBiasRelu

open Idealize.ShloMosaic Idealize.ShloMosaic.ValueIdx

/-- Entry (p, q): the larger of a (p, q) + b (0, q) and the value of the zero word. -/
def biasRelu {M N : ℕ} (a : FVec Ideal ⟨2, ![M, N]⟩ .f32) (b : FVec Ideal ⟨2, ![1, N]⟩ .f32) : FVec Ideal ⟨2, ![M, N]⟩ .f32 :=
  fun i => max (a i + b (ix2 (n0 := 1) (n1 := N) (0 : Fin 1) (i 1))) (Ideal.ofBits .f32 0x00000000#32)

theorem biasRelu_apply {M N : ℕ} (a : FVec Ideal ⟨2, ![M, N]⟩ .f32) (b : FVec Ideal ⟨2, ![1, N]⟩ .f32) (p : Fin M) (q : Fin N) :
    biasRelu a b (ix2 p q) = max (a (ix2 p q) + b (ix2 (0 : Fin 1) q)) (Ideal.ofBits .f32 0x00000000#32) := rfl

/-- The vector unit's spelling. -/
theorem vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a h1) (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, shapeCast_self, maximumf_apply, addf_apply, broadcastTo_1b_ab_apply, biasRelu_apply]
  rfl

/-- The host's spelling. -/
theorem host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] hbc b))
        (broadcastInDim ⟨2, ![M, N]⟩ ![] h0 (constant (F := Ideal) ⟨0, ![]⟩ .f32 0x00000000#32)) = biasRelu a b := by
  funext j
  obtain ⟨p, q, rfl⟩ : ∃ (p : Fin M) (q : Fin N), j = ix2 p q := ⟨j 0, j 1, eq_ix2 j⟩
  have hz : broadcastInDim ⟨2, ![M, N]⟩ ![] h0 (constant (F := Ideal) ⟨0, ![]⟩ .f32 0x00000000#32) (ix2 p q)
      = Ideal.ofBits .f32 0x00000000#32 :=
    (broadcastInDim_apply _ h0 _ _ (fun a => a.elim0) (fun ax => ax.elim0)).trans rfl
  rw [maximumf_apply, addf_apply, Cert.LibPlainDot.bcast_1b_ab_apply, biasRelu_apply, hz]

/-- Rows r, …, r + T − 1: when a holds those rows of A and b is B, entry (p, q) of `biasRelu a b` is entry (r + p, q)
    of `biasRelu A B`. -/
theorem biasRelu_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    biasRelu a b (ix2 p q) = biasRelu A B (ix2 ⟨r + p.val, hp⟩ q) := by
  rw [biasRelu_apply, biasRelu_apply, ha p q hp, hb]

end Cert.LibBiasRelu

end
-- ==== Proof.Region2.lean ====
/-
  The second dense layer. The grid has 25 points; point t holds rows 2000·t … 2000·t + 1999 of the aggregated messages
  (64 columns), the whole bias row and the whole 64 × 32 weight matrix, and writes rows 2000·t … 2000·t + 1999 of the
  result: (its rows plus the bias, clamped below at zero) times the weights (narrowing to bf16 is the identity on
  exact values, the accumulator starts at zero). That is the same band of rows of (all rows plus the bias, clamped)
  times the weights. The 25 bands tile the 50000 rows, so the array ends holding the whole product.
-/
import proofs.«148951_j28656021799465_2_alg».proof.Proof.Gen.KernelIdeal.Frame
import proofs.«148951_j28656021799465_2_alg».proof.Proof.LibMatProd
import proofs.«148951_j28656021799465_2_alg».proof.Proof.LibBiasRelu
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.DenseTwo

open Cert.KernelIdeal Cert.KernelIdeal.Gen Cert.LibMatProd Cert.LibBiasRelu

variable (V : (c : Dev nD) → (b : Ref sig .tc) → Buf (Elt Ideal) ((c : Thread nD τ).loc b))

theorem zero_offsets : (![0, 0] : Fin 2 → Nat) = fun _ => 0 := funext fun a => by fin_cases a <;> rfl

/-- The aggregated messages plus the bias row, clamped below at zero, as the region finds them. -/
abbrev activated (c : Dev nD) : S50000x64.Idx → Elt Ideal .f32 :=
  biasRelu (M := 50000) (N := 64) (V c main_v39) (V c main_v40)

/-- The activated matrix times the weights. -/
abbrev whole (c : Dev nD) : S50000x32.Idx → Elt Ideal .f32 :=
  matProd (M := 50000) (K := 64) (N := 32) (activated V c) (V c main_arg4)

/-- The body's stored value: its activated block of rows times its block of weights. -/
theorem payload_eq (x0 : Vec Ideal S2000x64 .f32) (x1 : Vec Ideal S1x64 .f32) (x2 : Vec Ideal S64x32 .f32) :
    k2_pay1 x0 x1 x2 = matProd (M := 2000) (K := 64) (N := 32) (biasRelu (M := 2000) (N := 64) x0 x1) x2 := by
  refine Eq.trans ?_ (matmul_eq dot_S2000x64_S64x32_S2000x32_1_0_0_1_n_n rfl rfl rfl rfl rfl rfl (biasRelu (M := 2000) (N := 64) x0 x1) x2 bitsLt_bf16_f32)
  rw [← vector_form x0 x1 shapeCasts_S2000x64_S2000x64 shapeCasts_S1x64_S1x64 broadcasts_S1x64_S2000x64]
  rfl

/-- Block indices over the grid: the message rows and the result rows move with the point, bias and weights stay. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The message block at point t is rows 2000·t … of the aggregated messages. -/
theorem rows_block (c : Dev nD) (t : Fin cfg2.N) (p : Fin 2000) (k : Fin 64) (hp : 2000 * t.val + p.val < 50000) :
    (iblk2 V c 0 t : Vec Ideal S2000x64 .f32) (ix2 p k) = (V c main_v39 : S50000x64.Idx → Elt Ideal .f32) (ix2 ⟨2000 * t.val + p.val, hp⟩ k) := by
  obtain ⟨e0, e1, -, -, -, -, -, -⟩ := block_index t
  unfold iblk2
  rw [View.read_apply]
  show V c main_v39 _ = V c main_v39 _
  congr 1
  funext a
  apply Fin.ext
  match a with
  | ⟨0, _⟩ => show win2_0.index t (0 : Fin 2) * 2000 + 1 * p.val = 2000 * t.val + p.val; rw [e0]; omega
  | ⟨1, _⟩ => show win2_0.index t (1 : Fin 2) * 64 + 1 * k.val = k.val; rw [e1]; omega

/-- The bias block at every point is the whole bias row. -/
theorem bias_block (c : Dev nD) (t : Fin cfg2.N) (z : S1x64.Idx) :
    (iblk2 V c 1 t : Vec Ideal S1x64 .f32) z = (V c main_v40 : S1x64.Idx → Elt Ideal .f32) z := by
  obtain ⟨-, -, e2, e3, -, -, -, -⟩ := block_index t
  unfold iblk2
  rw [View.read_apply]
  show V c main_v40 _ = V c main_v40 _
  congr 1
  funext a
  apply Fin.ext
  match a with
  | ⟨0, _⟩ => show win2_1.index t (0 : Fin 2) * 1 + 1 * (z 0).val = (z 0).val; rw [e2]; omega
  | ⟨1, _⟩ => show win2_1.index t (1 : Fin 2) * 64 + 1 * (z 1).val = (z 1).val; rw [e3]; omega

/-- The weight block at every point is the whole weight matrix. -/
theorem weights_block (c : Dev nD) (t : Fin cfg2.N) (z : S64x32.Idx) :
    (iblk2 V c 2 t : Vec Ideal S64x32 .f32) z = (V c main_arg4 : S64x32.Idx → Elt Ideal .f32) z := by
  obtain ⟨-, -, -, -, e4, e5, -, -⟩ := block_index t
  unfold iblk2
  rw [View.read_apply]
  show V c main_arg4 _ = V c main_arg4 _
  congr 1
  funext a
  apply Fin.ext
  match a with
  | ⟨0, _⟩ => show win2_2.index t (0 : Fin 2) * 64 + 1 * (z 0).val = (z 0).val; rw [e4]; omega
  | ⟨1, _⟩ => show win2_2.index t (1 : Fin 2) * 32 + 1 * (z 1).val = (z 1).val; rw [e5]; omega

/-- What point t writes back is its band of rows of the whole product. -/
theorem flushed (c : Dev nD) (t : Fin cfg2.N) :
    (dat2 V c).flushed 3 t = ((cfg2.win 3).blk t).view.read (Elt Ideal) (whole V c) := by
  show (cfg2.win 3).cut (grid2.coords t) ((dat2 V c).after 3 t) = _
  rw [after2_3]
  unfold out2_3
  rw [View.canon_unit_zero zero_offsets]
  simp only [View.ld_unit_zero (S := S2000x64) zero_offsets, View.ld_unit_zero (S := S1x64) zero_offsets, View.ld_unit_zero (S := S64x32) zero_offsets]
  rw [payload_eq]
  obtain ⟨-, -, -, -, -, -, e6, e7⟩ := block_index t
  funext j
  show matProd (M := 2000) (K := 64) (N := 32) (biasRelu (M := 2000) (N := 64) (iblk2 V c 0 t) (iblk2 V c 1 t)) (iblk2 V c 2 t) j
    = whole V c (((cfg2.win 3).blk t).view.emb j)
  refine matProd_rows (activated V c) (V c main_arg4) (biasRelu (M := 2000) (N := 64) (iblk2 V c 0 t) (iblk2 V c 1 t)) (iblk2 V c 2 t) (2000 * t.val)
    (fun p k hp => biasRelu_rows (V c main_v39) (V c main_v40) (iblk2 V c 0 t) (iblk2 V c 1 t) (2000 * t.val)
      (fun p' q' hp' => rows_block V c t p' q' hp') (fun z => bias_block V c t z) p k hp)
    (fun z => weights_block V c t z) j _ ?_ ?_
  · show win2_3.index t (0 : Fin 2) * 2000 + 1 * (j 0).val = 2000 * t.val + (j 0).val; rw [e6]; omega
  · show win2_3.index t (1 : Fin 2) * 32 + 1 * (j 1).val = (j 1).val; rw [e7]; omega

/-- An index of the result lies in point t's block exactly when its row is in the band. -/
theorem mem_block (t : Fin cfg2.N) (i : S50000x32.Idx) :
    i ∈ ((cfg2.win 3).blk t).view.set ↔ ∀ a : Fin 2, win2_3.index t a * S2000x32.size a ≤ (i a).val ∧ (i a).val < win2_3.index t a * S2000x32.size a + S2000x32.size a := by
  show i ∈ ((View.whole main_v41).slice (win2_3.rect t)).set ↔ _
  rw [View.set_slice_whole, Rect.mem_set_unit]
  exact Iff.rfl

/-- The result array after the region: the whole product. -/
theorem array (c : Dev nD) : (dat2 V c).arrAt 3 cfg2.N = whole V c :=
  (dat2 V c).arrAt_eq_of_cover 3 (whole V c) (fun t _ => flushed V c t) fun i => by
    have hi0 : (i 0).val < 50000 := (i 0).isLt
    have hi1 : (i 1).val < 32 := (i 1).isLt
    have hN : cfg2.N = 25 := N_2
    refine ⟨⟨(i 0).val / 2000, by rw [hN]; omega⟩, flush2_3 _, ?_⟩
    rw [mem_block]
    obtain ⟨-, -, -, -, -, -, e6, e7⟩ := block_index ⟨(i 0).val / 2000, by rw [hN]; omega⟩
    intro a
    match a with
    | ⟨0, _⟩ =>
      show win2_3.index _ (0 : Fin 2) * 2000 ≤ (i 0).val ∧ (i 0).val < win2_3.index _ (0 : Fin 2) * 2000 + 2000
      rw [e6]; show (i 0).val / 2000 * 2000 ≤ (i 0).val ∧ (i 0).val < (i 0).val / 2000 * 2000 + 2000; omega
    | ⟨1, _⟩ =>
      show win2_3.index _ (1 : Fin 2) * 32 ≤ (i 1).val ∧ (i 1).val < win2_3.index _ (1 : Fin 2) * 32 + 32
      rw [e7]; omega

end Cert.KernelIdeal.DenseTwo

end
-- ==== Proof.Stage3.lean ====
/-
  From the second region's exit to the third one's. The host adds each edge's message into its destination node's row
  (the same scatter-add on the same values as the reference's) and re-lays the first bias as one row, which is the
  bias broadcast into one row. The third region leaves (the aggregated messages plus the bias row, clamped below at
  zero) times the second weight matrix: the host's add of the broadcast bias, maximum against a broadcast zero, and
  contraction with the weights.
-/
import proofs.«148951_j28656021799465_2_alg».proof.Proof.Stage2
import proofs.«148951_j28656021799465_2_alg».proof.Proof.Region2
import proofs.«148951_j28656021799465_2_alg».proof.Proof.LibMatProd
import proofs.«148951_j28656021799465_2_alg».proof.Proof.LibBiasRelu
import proofs.«148951_j28656021799465_2_alg».proof.Proof.LibRowScale

noncomputable section

open Idealize.ShloMosaic Idealize.ShloMosaic.TcCoe Idealize.SL.Sem Idealize.ShloMosaic.ValueIdx Idealize.ShloMosaic.StableHlo

namespace Cert.KernelIdeal.Stages

open Cert.KernelIdeal Cert.KernelIdeal.Gen Cert.LibMatProd Cert.LibBiasRelu Cert.LibRowScale
open Cert.ReferenceIdeal.Read (val_main_v3 val_main_v6 val_main_v7 val_main_v27 val_main_v34 val_main_v35 val_main_v37 val_main_v40 val_main_v41 val_main_v44 val_main_v45 val_main_v72 val_main_v73 val_main_v75 val_main_v81)

variable (m : (ℓ : Loc nD τ sig) → Buf (Elt Ideal) ℓ) (ρ : Dev nD → PrngReg)

/-! ## Entering the third region -/

/-- The aggregated first-layer messages. -/
theorem entry3_aggregated (c : Dev nD) :
    W5 m ρ c (Proc.devRef .tc main_v39) = val_main_v40 (F := Ideal) (X0 m c) (X1 m c) (X2 m c) := by
  show StableHlo.after hostOps2 (W4 m ρ c) (Proc.devRef .tc main_v39) = _
  after_results
  rw [exit1_messages, exit1_dst]
  rfl

/-- The first bias as one row. -/
theorem entry3_bias (c : Dev nD) :
    W5 m ρ c (Proc.devRef .tc main_v40) = val_main_v41 (F := Ideal) (X3 m c) := by
  have h : W5 m ρ c (Proc.devRef .tc main_v40) = shapeCast S1x64 (X3 m c) shapeCasts_S64_S1x64 := by
    show StableHlo.after hostOps2 (W4 m ρ c) (Proc.devRef .tc main_v40) = _
    after_results
    rw [exit1_arg3]
    rfl
  rw [h]
  exact row_cast_eq_bcast _ _ _

theorem entry3_src (c : Dev nD) : W5 m ρ c (Proc.devRef .tc main_v3) = val_main_v3 (F := Ideal) (X1 m c) := by
  show StableHlo.after hostOps2 (W4 m ρ c) (Proc.devRef .tc main_v3) = _
  after_results
  exact exit1_src m ρ c

theorem entry3_dst (c : Dev nD) : W5 m ρ c (Proc.devRef .tc main_v6) = val_main_v6 (F := Ideal) (X1 m c) := by
  show StableHlo.after hostOps2 (W4 m ρ c) (Proc.devRef .tc main_v6) = _
  after_results
  exact exit1_dst m ρ c

theorem entry3_factor (c : Dev nD) : W5 m ρ c (Proc.devRef .tc main_v27) = val_main_v35 (F := Ideal) (X1 m c) := by
  show StableHlo.after hostOps2 (W4 m ρ c) (Proc.devRef .tc main_v27) = _
  after_results
  exact exit1_factor m ρ c

theorem entry3_arg4 (c : Dev nD) : W5 m ρ c (Proc.devRef .tc main_arg4) = X4 m c := by
  show StableHlo.after hostOps2 (W4 m ρ c) (Proc.devRef .tc main_arg4) = _
  after_results
  exact exit1_arg4 m ρ c

theorem entry3_arg5 (c : Dev nD) : W5 m ρ c (Proc.devRef .tc main_arg5) = X5 m c := by
  show StableHlo.after hostOps2 (W4 m ρ c) (Proc.devRef .tc main_arg5) = _
  after_results
  exact exit1_arg5 m ρ c

/-! ## After the third region -/

/-- The host's activation is the clamped sum. -/
theorem activation_eq (c : Dev nD) :
    val_main_v44 (F := Ideal) (X0 m c) (X1 m c) (X2 m c) (X3 m c)
      = biasRelu (M := 50000) (N := 64) (val_main_v40 (F := Ideal) (X0 m c) (X1 m c) (X2 m c)) (val_main_v41 (F := Ideal) (X3 m c)) :=
  host_form _ _ Cert.ReferenceIdeal.Gen.bcast_S1x64_S50000x64_0_1 Cert.ReferenceIdeal.Gen.bcast_S_S50000x64

/-- The second layer's product. -/
theorem exit2_product (c : Dev nD) :
    W6 m ρ c (Proc.devRef .tc main_v41) = val_main_v45 (F := Ideal) (X0 m c) (X1 m c) (X2 m c) (X3 m c) (X4 m c) := by
  refine (W6_arr m ρ c 3).trans ((DenseTwo.array (V5 m ρ) c).trans ?_)
  show matProd (M := 50000) (K := 64) (N := 32)
    (biasRelu (M := 50000) (N := 64) (W5 m ρ c (Proc.devRef .tc main_v39)) (W5 m ρ c (Proc.devRef .tc main_v40)))
    (W5 m ρ c (Proc.devRef .tc main_arg4)) = _
  rw [entry3_aggregated, entry3_bias, entry3_arg4, ← activation_eq]
  exact (host_dot_eq Cert.ReferenceIdeal.dot_S50000x64_S64x32_S50000x32_1_0_0_1_n_n rfl rfl rfl rfl rfl rfl _ _).symm

theorem exit2_src (c : Dev nD) : W6 m ρ c (Proc.devRef .tc main_v3) = val_main_v3 (F := Ideal) (X1 m c) :=
  (W6_of_ne m ρ c main_v3 (by decide)).trans (entry3_src m ρ c)

theorem exit2_dst (c : Dev nD) : W6 m ρ c (Proc.devRef .tc main_v6) = val_main_v6 (F := Ideal) (X1 m c) :=
  (W6_of_ne m ρ c main_v6 (by decide)).trans (entry3_dst m ρ c)

theorem exit2_factor (c : Dev nD) : W6 m ρ c (Proc.devRef .tc main_v27) = val_main_v35 (F := Ideal) (X1 m c) :=
  (W6_of_ne m ρ c main_v27 (by decide)).trans (entry3_factor m ρ c)

theorem exit2_arg5 (c : Dev nD) : W6 m ρ c (Proc.devRef .tc main_arg5) = X5 m c :=
  (W6_of_ne m ρ c main_arg5 (by decide)).trans (entry3_arg5 m ρ c)

end Cert.KernelIdeal.Stages

end
-- ==== Proof.Region3.lean ====
/-
  The second message scaling: as the first, on 32 columns. The grid has 170 points; point t holds rows
  5000·t … 5000·t + 4999 of the gathered features (850000 edges by 32 columns) and the same rows of the per-edge
  factor (one column), and writes those rows of the result: each gathered row times its edge's factor. The 170 bands
  tile the 850000 rows, so the array ends holding every gathered row scaled by its factor.
-/
import proofs.«148951_j28656021799465_2_alg».proof.Proof.Gen.KernelIdeal.Frame
import proofs.«148951_j28656021799465_2_alg».proof.Proof.LibRowScale
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.ScaleTwo

open Cert.KernelIdeal Cert.KernelIdeal.Gen Cert.LibRowScale

variable (V : (c : Dev nD) → (b : Ref sig .tc) → Buf (Elt Ideal) ((c : Thread nD τ).loc b))

theorem zero_offsets : (![0, 0] : Fin 2 → Nat) = fun _ => 0 := funext fun a => by fin_cases a <;> rfl

/-- The gathered rows scaled by the per-edge factor, as the region finds them. -/
abbrev whole (c : Dev nD) : S850000x32.Idx → Elt Ideal .f32 :=
  rowScale (M := 850000) (N := 32) (V c main_v48) (V c main_v27)

/-- The body's stored value is its block of rows scaled by its block of the factor column. -/
theorem payload_eq (x0 : Vec Ideal S5000x32 .f32) (x1 : Vec Ideal S5000x1 .f32) :
    k3_pay1 x0 x1 = rowScale (M := 5000) (N := 32) x0 x1 :=
  mul_broadcastTo_eq x0 x1 shapeCasts_S5000x32_S5000x32 shapeCasts_S5000x1_S5000x1 broadcasts_S5000x1_S5000x32

/-- Block indices over the grid: all three windows move down the rows with the point. -/
theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The block of gathered rows at point t is rows 5000·t … of the gathered array. -/
theorem rows_block (c : Dev nD) (t : Fin cfg3.N) (p : Fin 5000) (q : Fin 32) (hp : 5000 * t.val + p.val < 850000) :
    (iblk3 V c 0 t : Vec Ideal S5000x32 .f32) (ix2 p q) = (V c main_v48 : S850000x32.Idx → Elt Ideal .f32) (ix2 ⟨5000 * t.val + p.val, hp⟩ q) := by
  obtain ⟨e0, e1, -, -, -, -⟩ := block_index t
  unfold iblk3
  rw [View.read_apply]
  show V c main_v48 _ = V c main_v48 _
  congr 1
  funext a
  apply Fin.ext
  match a with
  | ⟨0, _⟩ => show win3_0.index t (0 : Fin 2) * 5000 + 1 * p.val = 5000 * t.val + p.val; rw [e0]; omega
  | ⟨1, _⟩ => show win3_0.index t (1 : Fin 2) * 32 + 1 * q.val = q.val; rw [e1]; omega

/-- The block of the factor column at point t is rows 5000·t … of the factor column. -/
theorem factor_block (c : Dev nD) (t : Fin cfg3.N) (p : Fin 5000) (hp : 5000 * t.val + p.val < 850000) :
    (iblk3 V c 1 t : Vec Ideal S5000x1 .f32) (ix2 p (0 : Fin 1)) = (V c main_v27 : S850000x1.Idx → Elt Ideal .f32) (ix2 ⟨5000 * t.val + p.val, hp⟩ (0 : Fin 1)) := by
  obtain ⟨-, -, e2, e3, -, -⟩ := block_index t
  unfold iblk3
  rw [View.read_apply]
  show V c main_v27 _ = V c main_v27 _
  congr 1
  funext a
  apply Fin.ext
  match a with
  | ⟨0, _⟩ => show win3_1.index t (0 : Fin 2) * 5000 + 1 * p.val = 5000 * t.val + p.val; rw [e2]; omega
  | ⟨1, _⟩ => show win3_1.index t (1 : Fin 2) * 1 + 1 * 0 = 0; rw [e3]

/-- What point t writes back is its band of rows of the whole scaled array. -/
theorem flushed (c : Dev nD) (t : Fin cfg3.N) :
    (dat3 V c).flushed 2 t = ((cfg3.win 2).blk t).view.read (Elt Ideal) (whole V c) := by
  show (cfg3.win 2).cut (grid3.coords t) ((dat3 V c).after 2 t) = _
  rw [after3_2]
  unfold out3_2
  rw [View.canon_unit_zero zero_offsets]
  simp only [View.ld_unit_zero (S := S5000x32) zero_offsets, View.ld_unit_zero (S := S5000x1) zero_offsets]
  rw [payload_eq]
  obtain ⟨-, -, -, -, e4, e5⟩ := block_index t
  funext j
  show rowScale (M := 5000) (N := 32) (iblk3 V c 0 t) (iblk3 V c 1 t) j = whole V c (((cfg3.win 2).blk t).view.emb j)
  refine rowScale_rows (V c main_v48) (V c main_v27) (iblk3 V c 0 t) (iblk3 V c 1 t) (5000 * t.val)
    (fun p q hp => rows_block V c t p q hp) (fun p hp => factor_block V c t p hp) j _ ?_ ?_
  · show win3_2.index t (0 : Fin 2) * 5000 + 1 * (j 0).val = 5000 * t.val + (j 0).val; rw [e4]; omega
  · show win3_2.index t (1 : Fin 2) * 32 + 1 * (j 1).val = (j 1).val; rw [e5]; omega

/-- An index of the result lies in point t's block exactly when its row is in the band. -/
theorem mem_block (t : Fin cfg3.N) (i : S850000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v49).slice (win3_2.rect t)).set ↔ _
  rw [View.set_slice_whole, Rect.mem_set_unit]
  exact Iff.rfl

/-- The result array after the region: the whole scaled array. -/
theorem array (c : Dev nD) : (dat3 V c).arrAt 2 cfg3.N = whole V c :=
  (dat3 V c).arrAt_eq_of_cover 2 (whole V c) (fun t _ => flushed V c t) fun i => by
    have hi0 : (i 0).val < 850000 := (i 0).isLt
    have hi1 : (i 1).val < 32 := (i 1).isLt
    have hN : cfg3.N = 170 := N_3
    refine ⟨⟨(i 0).val / 5000, by rw [hN]; omega⟩, flush3_2 _, ?_⟩
    rw [mem_block]
    obtain ⟨-, -, -, -, e4, e5⟩ := block_index ⟨(i 0).val / 5000, by rw [hN]; omega⟩
    intro a
    match a with
    | ⟨0, _⟩ =>
      show win3_2.index _ (0 : Fin 2) * 5000 ≤ (i 0).val ∧ (i 0).val < win3_2.index _ (0 : Fin 2) * 5000 + 5000
      rw [e4]; show (i 0).val / 5000 * 5000 ≤ (i 0).val ∧ (i 0).val < (i 0).val / 5000 * 5000 + 5000; omega
    | ⟨1, _⟩ =>
      show win3_2.index _ (1 : Fin 2) * 32 ≤ (i 1).val ∧ (i 1).val < win3_2.index _ (1 : Fin 2) * 32 + 32
      rw [e5]; omega

end Cert.KernelIdeal.ScaleTwo

end
-- ==== Proof.Stage4.lean ====
/-
  From the third region's exit to the result. The host gathers one row of the second product per edge; the fourth
  region scales each by its edge's factor (the reference computes the factor a second time, by the same operations on
  the same index lists: one value); the host adds each message into its destination node's row and adds the second
  bias, re-laid as one row and broadcast down the rows. Each step is the reference's stage of the same operations on
  equal values, so the result buffer ends at the reference's result as a function of the six arguments.
-/
import proofs.«148951_j28656021799465_2_alg».proof.Proof.Stage3
import proofs.«148951_j28656021799465_2_alg».proof.Proof.Region3
import proofs.«148951_j28656021799465_2_alg».proof.Proof.LibRowScale

noncomputable section

open Idealize.ShloMosaic Idealize.ShloMosaic.TcCoe Idealize.SL.Sem Idealize.ShloMosaic.ValueIdx Idealize.ShloMosaic.StableHlo

namespace Cert.KernelIdeal.Stages

open Cert.KernelIdeal Cert.KernelIdeal.Gen Cert.LibRowScale
open Cert.ReferenceIdeal.Read (val_main_v3 val_main_v6 val_main_v7 val_main_v27 val_main_v34 val_main_v35 val_main_v37 val_main_v40 val_main_v41 val_main_v44 val_main_v45 val_main_v72 val_main_v73 val_main_v75 val_main_v81)

variable (m : (ℓ : Loc nD τ sig) → Buf (Elt Ideal) ℓ) (ρ : Dev nD → PrngReg)

/-! ## Entering the fourth region -/

/-- One row of the second product per edge. -/
theorem entry4_rows (c : Dev nD) :
    W7 m ρ c (Proc.devRef .tc main_v48) = val_main_v72 (F := Ideal) (X0 m c) (X1 m c) (X2 m c) (X3 m c) (X4 m c) := by
  show StableHlo.after hostOps3 (W6 m ρ c) (Proc.devRef .tc main_v48) = _
  after_results
  rw [exit2_product, exit2_src]
  rfl

/-- The per-edge factor computed twice is one value. -/
theorem factor_again (c : Dev nD) : val_main_v35 (F := Ideal) (X1 m c) = val_main_v73 (F := Ideal) (X1 m c) := rfl

theorem entry4_factor (c : Dev nD) :
    W7 m ρ c (Proc.devRef .tc main_v27) = val_main_v73 (F := Ideal) (X1 m c) := by
  show StableHlo.after hostOps3 (W6 m ρ c) (Proc.devRef .tc main_v27) = _
  after_results
  exact (exit2_factor m ρ c).trans (factor_again m c)

theorem entry4_dst (c : Dev nD) : W7 m ρ c (Proc.devRef .tc main_v6) = val_main_v6 (F := Ideal) (X1 m c) := by
  show StableHlo.after hostOps3 (W6 m ρ c) (Proc.devRef .tc main_v6) = _
  after_results
  exact exit2_dst m ρ c

theorem entry4_arg5 (c : Dev nD) : W7 m ρ c (Proc.devRef .tc main_arg5) = X5 m c := by
  show StableHlo.after hostOps3 (W6 m ρ c) (Proc.devRef .tc main_arg5) = _
  after_results
  exact exit2_arg5 m ρ c

/-! ## After the fourth region -/

/-- The second layer's messages. -/
theorem exit3_messages (c : Dev nD) :
    W8 m ρ c (Proc.devRef .tc main_v49) = val_main_v75 (F := Ideal) (X0 m c) (X1 m c) (X2 m c) (X3 m c) (X4 m c) := by
  refine (W8_arr m ρ c 2).trans ((ScaleTwo.array (V7 m ρ) c).trans ?_)
  show rowScale (M := 850000) (N := 32) (W7 m ρ c (Proc.devRef .tc main_v48)) (W7 m ρ c (Proc.devRef .tc main_v27)) = _
  rw [entry4_rows, entry4_factor]
  exact (mul_broadcastInDim_eq _ _ Cert.ReferenceIdeal.Gen.bcast_S850000x1_S850000x32_0_1).symm

theorem exit3_dst (c : Dev nD) : W8 m ρ c (Proc.devRef .tc main_v6) = val_main_v6 (F := Ideal) (X1 m c) :=
  (W8_of_ne m ρ c main_v6 (by decide)).trans (entry4_dst m ρ c)

theorem exit3_arg5 (c : Dev nD) : W8 m ρ c (Proc.devRef .tc main_arg5) = X5 m c :=
  (W8_of_ne m ρ c main_arg5 (by decide)).trans (entry4_arg5 m ρ c)

/-! ## The result -/

/-- The closing stretch of host operations: each message added into its destination node's row, plus the second bias
    re-laid as one row and repeated down the rows. -/
theorem closing_form (c : Dev nD) (msgs : S850000x32.Idx → Elt Ideal .f32) (dst : S850000.Idx → Elt Ideal .i32)
    (b : S32.Idx → Elt Ideal .f32)
    (hm : W8 m ρ c (Proc.devRef .tc main_v49) = msgs) (hd : W8 m ρ c (Proc.devRef .tc main_v6) = dst)
    (hb : W8 m ρ c (Proc.devRef .tc main_arg5) = b) :
    W9 m ρ c (Proc.devRef .tc main_v55)
      = addf (Host.scatterAdd (F := Ideal) scatter_S50000x32_S850000x1_S850000x32_1_0_0_1
          (broadcastInDim S50000x32 ![] bcast_S_S50000x32 (constant (F := Ideal) S_ .f32 0x00000000#32))
          (broadcastInDim S850000x1 ![0] bcast_S850000_S850000x1_0 dst) msgs)
        (broadcastInDim S50000x32 ![0, 1] bcast_S1x32_S50000x32_0_1 (shapeCast S1x32 b shapeCasts_S32_S1x32)) := by
  show StableHlo.after hostOps4 (W8 m ρ c) (Proc.devRef .tc main_v55) = _
  after_results
  rw [hm, hd, hb]
  rfl

/-- The result buffer after the whole program. -/
theorem result (c : Dev nD) :
    W9 m ρ c (Proc.devRef .tc main_v55) = val_main_v81 (F := Ideal) (X0 m c) (X1 m c) (X2 m c) (X3 m c) (X4 m c) (X5 m c) := by
  refine (closing_form m ρ c _ _ _ (exit3_messages m ρ c) (exit3_dst m ρ c) (exit3_arg5 m ρ c)).trans ?_
  rw [row_cast_eq_bcast (X5 m c) shapeCasts_S32_S1x32 Cert.ReferenceIdeal.Gen.bcast_S32_S1x32_1]
  rfl

end Cert.KernelIdeal.Stages

end
-- ==== Proof.lean ====
/-
  A two-layer graph convolution, against its plain reference, over the extended reals.

  Both programs build the same index lists (each edge list followed by one self loop per node), count each node's
  incoming edges, take the reciprocal square root of the counts, and give every edge the product of its two
  endpoints' values as its factor. A layer multiplies the node features by a weight matrix, takes for each edge the
  row of its source node times the edge's factor, adds each edge's row into the row of its destination node, and
  adds a bias; between the two layers every entry is clamped below at zero.

  The program under proof computes the two matrix products and the two scalings of the edge rows in four tiled
  regions, and everything else on the host. A tiled matrix product writes, band of rows by band of rows, the product
  of the whole matrix; a tiled row scaling writes, band by band, the whole scaled array. With the format changes
  the identity on exact values and every sum exact, each region's array is therefore the value the reference's
  corresponding operation computes, and the host operations between the regions are the reference's own, applied to
  equal values. So the two results are one function of the six arguments; no law beyond reindexing is used, and the
  inputs' finiteness is not needed.
-/
import proofs.«148951_j28656021799465_2_alg».proof.Defs
import proofs.«148951_j28656021799465_2_alg».proof.Proof.Gen.Kernel
import proofs.«148951_j28656021799465_2_alg».proof.Proof.Gen.Kernel.Frame
import proofs.«148951_j28656021799465_2_alg».proof.Proof.Gen.KernelIdeal
import proofs.«148951_j28656021799465_2_alg».proof.Proof.Gen.KernelIdeal.Frame
import proofs.«148951_j28656021799465_2_alg».proof.Proof.Gen.ReferenceIdeal
import proofs.«148951_j28656021799465_2_alg».proof.Proof.Gen.Pre_finite_inputs
import proofs.«148951_j28656021799465_2_alg».proof.Proof.Gen.ReferenceIdeal.Run
import proofs.«148951_j28656021799465_2_alg».proof.Proof.Gen.ReferenceIdeal.Read
import proofs.«148951_j28656021799465_2_alg».proof.Proof.KernelRun
import proofs.«148951_j28656021799465_2_alg».proof.Proof.Stage4
import Idealize.ShloMosaic.Adequacy
import Idealize.ShloMosaic.Init

noncomputable section

namespace Cert.Proof

open Idealize.ShloMosaic Idealize.SL.Sem

/-- The word-level program terminates, nothing faulting, its arguments unchanged. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the six arguments both programs end with the same result: the reference's result as
    a function of the arguments. -/
theorem algebraic : Cert.algebraic_KernelIdeal_ReferenceIdeal := by
  intro m ρ m' ρ' _ hagree
  refine ⟨fun c => Cert.ReferenceIdeal.Read.val_main_v81 (F := Ideal) (Cert.KernelIdeal.Stages.X0 m c) (Cert.KernelIdeal.Stages.X1 m c)
    (Cert.KernelIdeal.Stages.X2 m c) (Cert.KernelIdeal.Stages.X3 m c) (Cert.KernelIdeal.Stages.X4 m c) (Cert.KernelIdeal.Stages.X5 m c), ?_, ?_⟩
  · exact (θ_run Cert.KernelIdeal.defs _ _).mono
      (fun _ h c => ⟨(h c).1.trans (Cert.KernelIdeal.Stages.result m ρ c), (h c).2⟩)
      (Cert.KernelIdeal.WholeRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v81_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
